-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x4096 : Shape := ⟨3, ![64, 1, 4096]⟩
abbrev S11008x4096 : Shape := ⟨2, ![11008, 4096]⟩
abbrev S4403 : Shape := ⟨1, ![4403]⟩
abbrev S_ : Shape := ⟨0, ![]⟩

class Facts : Prop where
  bcast_S_S64x1x4096 : S_.BroadcastsInDim S64x1x4096 (![] : Fin 0 → Fin S64x1x4096.rank)
  reducesTo_S64x1x4096_S_d0_1_2 : S64x1x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_

variable [Facts]

def fn {F : FTy → Type} [FloatOps F] (main_arg0 : FVec F S64x1x4096 .f32) (main_arg1 : FVec F S11008x4096 .f32) (main_arg2 : IVec S4403 32) : IVec S_ 1 :=
  let main_v0 : FVec F S64x1x4096 .f32 := Host.absf main_arg0
  let main_cst : FVec F S_ .f32 := constant S_ .f32 0x7F800000#32
  let main_v1 : FVec F S64x1x4096 .f32 := broadcastInDim S64x1x4096 ![] bcast_S_S64x1x4096 main_cst
  let main_v2 : IVec S64x1x4096 1 := cmpf .olt main_v0 main_v1
  let main_c : IVec S_ 1 := constantI S_ 1 1#1
  let main_v3 : IVec S_ 1 := (fun x v => Host.reduce IntOp.andi x v reducesTo_S64x1x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  main_v8
-- ==== Kernel.lean ====
abbrev S64x1x4096 : Shape := ⟨3, ![64, 1, 4096]⟩
abbrev S11008x4096 : Shape := ⟨2, ![11008, 4096]⟩
abbrev S4403 : Shape := ⟨1, ![4403]⟩
abbrev S64x4096 : Shape := ⟨2, ![64, 4096]⟩
abbrev S64x11008 : Shape := ⟨2, ![64, 11008]⟩
abbrev S256x4096 : Shape := ⟨2, ![256, 4096]⟩
abbrev S64x256 : Shape := ⟨2, ![64, 256]⟩
abbrev S_ : Shape := ⟨0, ![]⟩
abbrev S4403x1 : Shape := ⟨2, ![4403, 1]⟩
abbrev S64x4403 : Shape := ⟨2, ![64, 4403]⟩
abbrev S64x1x4403 : Shape := ⟨3, ![64, 1, 4403]⟩

abbrev nBuf : Space → Nat
  | .hbm => 15
  | .vmem => 5
  | .smem => 0
  | _ => 0

abbrev bufTy : (tb : Table) → Fin (tcTables nBuf tb) → BufTy
  | .hbm, ⟨0, _⟩ => ⟨S64x1x4096, .f32⟩
  | .hbm, ⟨1, _⟩ => ⟨S11008x4096, .f32⟩
  | .hbm, ⟨2, _⟩ => ⟨S4403, .i32⟩
  | .hbm, ⟨3, _⟩ => ⟨S64x4096, .f32⟩
  | .hbm, ⟨4, _⟩ => ⟨S64x11008, .f32⟩
  | .hbm, ⟨5, _⟩ => ⟨S_, .i32⟩
  | .hbm, ⟨6, _⟩ => ⟨S4403, .i32⟩
  | .hbm, ⟨7, _⟩ => ⟨S4403, .i1⟩
  | .hbm, ⟨8, _⟩ => ⟨S_, .i32⟩
  | .hbm, ⟨9, _⟩ => ⟨S4403, .i32⟩
  | .hbm, ⟨10, _⟩ => ⟨S4403, .i32⟩
  | .hbm, ⟨11, _⟩ => ⟨S4403, .i32⟩
  | .hbm, ⟨12, _⟩ => ⟨S4403x1, .i32⟩
  | .hbm, ⟨13, _⟩ => ⟨S64x4403, .f32⟩
  | .hbm, ⟨14, _⟩ => ⟨S64x1x4403, .f32⟩
  | .local _ .vmem, ⟨0, _⟩ => ⟨S64x4096, .f32⟩
  | .local _ .vmem, ⟨1, _⟩ => ⟨S256x4096, .f32⟩
  | .local _ .vmem, ⟨2, _⟩ => ⟨S256x4096, .f32⟩
  | .local _ .vmem, ⟨3, _⟩ => ⟨S64x256, .f32⟩
  | .local _ .vmem, ⟨4, _⟩ => ⟨S64x256, .f32⟩
  | _, _ => ⟨S64x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x1x4096_S64x4096 : S64x1x4096.ShapeCasts S64x4096
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S64x256_S64x256_0_0 : ∀ a, (![0, 0] : Fin 2 → Nat) a + S64x256.size a ≤ S64x256.size a
  h_S64x256 : 0 < S64x256.numel
  bcast_S_S4403 : S_.BroadcastsInDim S4403 (![] : Fin 0 → Fin S4403.rank)
  bcast_S4403_S4403x1_0 : S4403.BroadcastsInDim S4403x1 (![0] : Fin 1 → Fin S4403x1.rank)
  shapeCasts_S64x4403_S64x1x4403 : S64x4403.ShapeCasts S64x1x4403
  dot_S64x4096_S256x4096_S64x256_1_1_0_0_n_n_wf : DotDims.WF S64x4096 S256x4096 S64x256 [1] [1] [0] [0] [] []
  gather_S64x11008_S4403x1_S64x4403_0_1_n_n_1_1_641_wf : GatherDims.WF S64x11008 S4403x1 S64x4403 [0] [1] [] [1] [] 1 ![64, 1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x4096.size a
  hwx0_0 : ∀ i : grid0.Coords, EltTy.bits .f32 = 32 ∨ (Rect.block (s := S64x4096) S64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .f32 = 32 ∨ (Rect.block (s := S11008x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x11008.size a
  hwx0_2 : ∀ i : grid0.Coords, EltTy.bits .f32 = 32 ∨ (Rect.block (s := S64x11008) S64x256.size (cc0_transform_2 i) (hinb0_2 i)).WholeWords (EltTy.packing .f32)

variable [Facts₀]

def dot_S64x4096_S256x4096_S64x256_1_1_0_0_n_n : DotDims S64x4096 S256x4096 S64x256 where
  lhsContracting := [1]
  rhsContracting := [1]
  lhsNonContracting := [0]
  rhsNonContracting := [0]
  lhsBatch := []
  rhsBatch := []
  wf := dot_S64x4096_S256x4096_S64x256_1_1_0_0_n_n_wf
def gather_S64x11008_S4403x1_S64x4403_0_1_n_n_1_1_641 : GatherDims S64x11008 S4403x1 S64x4403 where
  offsetDims := [0]
  collapsedSliceDims := [1]
  operandBatchingDims := []
  startIndicesBatchingDims := []
  startIndexMap := [1]
  indexVectorDim := 1
  sliceSizes := ![64, 1]
  wf := gather_S64x11008_S4403x1_S64x4403_0_1_n_n_1_1_641_wf

abbrev win0_0 : Pipeline.Window sig grid0 :=
  Pipeline.Window.ofSpec (Memref.whole main_v0) S64x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x1x4096 : Shape := ⟨3, ![64, 1, 4096]⟩
abbrev S11008x4096 : Shape := ⟨2, ![11008, 4096]⟩
abbrev S4403 : Shape := ⟨1, ![4403]⟩
abbrev S_ : Shape := ⟨0, ![]⟩
abbrev S4403x1 : Shape := ⟨2, ![4403, 1]⟩
abbrev S4403x4096 : Shape := ⟨2, ![4403, 4096]⟩
abbrev S64x1x4403 : Shape := ⟨3, ![64, 1, 4403]⟩

abbrev nBuf : Space → Nat
  | .hbm => 13
  | .vmem => 0
  | .smem => 0
  | _ => 0

abbrev bufTy : (tb : Table) → Fin (tcTables nBuf tb) → BufTy
  | .hbm, ⟨0, _⟩ => ⟨S64x1x4096, .f32⟩
  | .hbm, ⟨1, _⟩ => ⟨S11008x4096, .f32⟩
  | .hbm, ⟨2, _⟩ => ⟨S4403, .i32⟩
  | .hbm, ⟨3, _⟩ => ⟨S_, .i32⟩
  | .hbm, ⟨4, _⟩ => ⟨S4403, .i32⟩
  | .hbm, ⟨5, _⟩ => ⟨S4403, .i1⟩
  | .hbm, ⟨6, _⟩ => ⟨S_, .i32⟩
  | .hbm, ⟨7, _⟩ => ⟨S4403, .i32⟩
  | .hbm, ⟨8, _⟩ => ⟨S4403, .i32⟩
  | .hbm, ⟨9, _⟩ => ⟨S4403, .i32⟩
  | .hbm, ⟨10, _⟩ => ⟨S4403x1, .i32⟩
  | .hbm, ⟨11, _⟩ => ⟨S4403x4096, .f32⟩
  | .hbm, ⟨12, _⟩ => ⟨S64x1x4403, .f32⟩
  | _, _ => ⟨S64x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S4403 : S_.BroadcastsInDim S4403 (![] : Fin 0 → Fin S4403.rank)
  bcast_S4403_S4403x1_0 : S4403.BroadcastsInDim S4403x1 (![0] : Fin 1 → Fin S4403x1.rank)
  gather_S11008x4096_S4403x1_S4403x4096_1_0_n_n_0_1_14096_wf : GatherDims.WF S11008x4096 S4403x1 S4403x4096 [1] [0] [] [0] [] 1 ![1, 4096]
  dot_S64x1x4096_S4403x4096_S64x1x4403_2_1_01_0_n_n_wf : DotDims.WF S64x1x4096 S4403x4096 S64x1x4403 [2] [1] [0, 1] [0] [] []

variable [Facts₀]

def gather_S11008x4096_S4403x1_S4403x4096_1_0_n_n_0_1_14096 : GatherDims S11008x4096 S4403x1 S4403x4096 where
  offsetDims := [1]
  collapsedSliceDims := [0]
  operandBatchingDims := []
  startIndicesBatchingDims := []
  startIndexMap := [0]
  indexVectorDim := 1
  sliceSizes := ![1, 4096]
  wf := gather_S11008x4096_S4403x1_S4403x4096_1_0_n_n_0_1_14096_wf
def dot_S64x1x4096_S4403x4096_S64x1x4403_2_1_01_0_n_n : DotDims S64x1x4096 S4403x4096 S64x1x4403 where
  lhsContracting := [2]
  rhsContracting := [1]
  lhsNonContracting := [0, 1]
  rhsNonContracting := [0]
  lhsBatch := []
  rhsBatch := []
  wf := dot_S64x1x4096_S4403x4096_S64x1x4403_2_1_01_0_n_n_wf

class Facts : Prop extends Facts₀ where

variable [Facts]
-- ==== Proof.Spec.lean ====
/-
  The function both programs compute, on the extended reals.

  A batch of 64 activation rows `x[b, 0, ·]` of length 4096, a weight matrix `W` of 11008 rows of length 4096, and a
  column `I` of 4403 integer words, each naming a row of `W`. The result at `(b, 0, n)` is the dot product of
  activation row `b` with the weight row that word `n` names. Whether the rows are picked out of `W` first and the
  products taken afterwards, or the product with every row of `W` is taken first and the named columns picked out of
  it afterwards, the entry is the same sum: picking commutes with a product along the axis it does not contract.
-/
import Idealize.ShloMosaic.PureOps.Ideal
import Idealize.ShloMosaic.Lib.ValueIdx

noncomputable section

open scoped BigOperators

namespace Cert.RowSelect

open Idealize.ShloMosaic Idealize.ShloMosaic.ValueIdx

/-- The row of the 11008-row matrix that word `n` of the start-index column names: the 32-bit word read as a signed
    integer and clamped into `[0, 11007]` (a negative word names row 0, a word past the end the last row). -/
def rowOf (I : IVec ⟨2, ![4403, 1]⟩ 32) (n : Fin 4403) : Fin 11008 :=
  ⟨min (I (ix2 n (0 : Fin 1))).toInt.toNat 11007, by omega⟩

/-- Entry `(b, r)` of the full product `x · Wᵀ`: the dot product of activation row `b` with weight row `r`. -/
def dense (x : (⟨3, ![64, 1, 4096]⟩ : Shape).Idx → EReal) (W : (⟨2, ![11008, 4096]⟩ : Shape).Idx → EReal)
    (b : Fin 64) (r : Fin 11008) : EReal :=
  ∑ k : Fin 4096, x (ix3 b (0 : Fin 1) k) * W (ix2 r k)

/-- The result: at `(b, 0, n)` the dot product of activation row `b` with the weight row word `n` names. -/
def selected (x : (⟨3, ![64, 1, 4096]⟩ : Shape).Idx → EReal) (W : (⟨2, ![11008, 4096]⟩ : Shape).Idx → EReal)
    (I : IVec ⟨2, ![4403, 1]⟩ 32) : (⟨3, ![64, 1, 4403]⟩ : Shape).Idx → EReal :=
  fun i => dense x W ⟨(i 0).val, (i 0).isLt⟩ (rowOf I ⟨(i 2).val, (i 2).isLt⟩)

/-- The result read by coordinates. -/
theorem selected_apply (x : (⟨3, ![64, 1, 4096]⟩ : Shape).Idx → EReal) (W : (⟨2, ![11008, 4096]⟩ : Shape).Idx → EReal)
    (I : IVec ⟨2, ![4403, 1]⟩ 32) (b : Fin 64) (o : Fin 1) (n : Fin 4403) :
    selected x W I (ix3 b o n) = dense x W b (rowOf I n) := rfl

end Cert.RowSelect

end
-- ==== Proof.RefGather.lean ====
/-
  The reference's row gather read at an index: row `n` of the gathered matrix is the row of the weight matrix that
  start index `n` names (read signed, clamped into the matrix), column by column.
-/
import proofs.«155105_j56341380989521_1_alg».proof.Proof.Gen.ReferenceIdeal
import proofs.«155105_j56341380989521_1_alg».proof.Proof.Spec

noncomputable section

namespace Cert.ReferenceIdeal.RefValue

open Cert.ReferenceIdeal Cert.ReferenceIdeal.Gen Idealize.ShloMosaic Idealize.ShloMosaic.ValueIdx Cert.RowSelect

/-- Entry `(n, k)` of the gathered `[4403, 4096]` matrix is entry `(rowOf I n, k)` of the operand: the gather
    collapses the row axis at the clamped start index and keeps the column coordinate as the offset. -/
theorem gather_rows_apply {α : Type} (W : S11008x4096.Idx → α) (I : IVec S4403x1 32) (n : Fin 4403) (k : Fin 4096) :
    Host.gather gather_S11008x4096_S4403x1_S4403x4096_1_0_n_n_0_1_14096 W I (ix2 n k) = W (ix2 (rowOf I n) k) := by
  unfold Host.gather
  refine congrArg W ?_
  funext a
  refine Fin.ext ?_
  match a with
  | ⟨0, _⟩ =>
    show gather_S11008x4096_S4403x1_S4403x4096_1_0_n_n_0_1_14096.start (ix2 n k) I 0
      + gather_S11008x4096_S4403x1_S4403x4096_1_0_n_n_0_1_14096.batchCoord (ix2 n k) 0
      + gather_S11008x4096_S4403x1_S4403x4096_1_0_n_n_0_1_14096.offCoord (ix2 n k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S11008x4096_S4403x1_S4403x4096_1_0_n_n_0_1_14096.startIndexMap from
      List.mem_singleton.mpr rfl)]
    have hsi : gather_S11008x4096_S4403x1_S4403x4096_1_0_n_n_0_1_14096.siIdx (ix2 n k)
        ⟨List.idxOf (0 : Fin 2) gather_S11008x4096_S4403x1_S4403x4096_1_0_n_n_0_1_14096.startIndexMap,
          List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show gather_S11008x4096_S4403x1_S4403x4096_1_0_n_n_0_1_14096.start (ix2 n k) I 1
      + gather_S11008x4096_S4403x1_S4403x4096_1_0_n_n_0_1_14096.batchCoord (ix2 n k) 1
      + gather_S11008x4096_S4403x1_S4403x4096_1_0_n_n_0_1_14096.offCoord (ix2 n k) 1 = k.val
    have hs : gather_S11008x4096_S4403x1_S4403x4096_1_0_n_n_0_1_14096.start (ix2 n k) I 1 = 0 := by
      unfold GatherDims.start
      rw [dif_neg (show (1 : Fin 2) ∉ gather_S11008x4096_S4403x1_S4403x4096_1_0_n_n_0_1_14096.startIndexMap by decide)]
    have ho : gather_S11008x4096_S4403x1_S4403x4096_1_0_n_n_0_1_14096.offCoord (ix2 n k) 1 = k.val := by
      unfold GatherDims.offCoord
      rw [dif_pos (show (1 : Fin 2) ∈ gather_S11008x4096_S4403x1_S4403x4096_1_0_n_n_0_1_14096.sKept by decide)]
      rfl
    rw [hs, ho, GatherDims.batchCoord_eq_zero _ _ _ List.not_mem_nil]
    omega

end Cert.ReferenceIdeal.RefValue

end
-- ==== Proof.RefValue.lean ====
/-
  The reference computes `selected`: its contraction of the activations with the gathered rows, read at an index,
  is the dot product of an activation row with the weight row the start index names.
-/
import proofs.«155105_j56341380989521_1_alg».proof.Proof.Gen.ReferenceIdeal.Read
import proofs.«155105_j56341380989521_1_alg».proof.Proof.RefGather

noncomputable section

open scoped BigOperators

namespace Cert.ReferenceIdeal.RefValue

open Cert.ReferenceIdeal Cert.ReferenceIdeal.Gen Cert.ReferenceIdeal.Read Idealize.ShloMosaic Idealize.ShloMosaic.ValueIdx
  Cert.RowSelect

/-- The reference's result as a function of its three arguments: `selected` of the activations, the weights and
    the start-index column the reference's integer operations make of the index argument. -/
theorem result_eq (x0 : (⟨S64x1x4096, .f32⟩ : BufTy).Contents (Elt Ideal)) (x1 : (⟨S11008x4096, .f32⟩ : BufTy).Contents (Elt Ideal))
    (x2 : (⟨S4403, .i32⟩ : BufTy).Contents (Elt Ideal)) :
    val_main_v7 (F := Ideal) x0 x1 x2 = selected x0 x1 (val_main_v5 (F := Ideal) x2) := by
  funext i
  obtain ⟨b, o, n, rfl⟩ : ∃ (b : Fin 64) (o : Fin 1) (n : Fin 4403), i = ix3 b o n := ⟨i 0, i 1, i 2, eq_ix3 i⟩
  obtain rfl : o = 0 := Subsingleton.elim _ _
  rw [val_main_v7_apply, selected_apply]
  unfold dense
  refine Finset.sum_congr rfl fun k _ => ?_
  have el : lidx_main_v7 (ix3 b (0 : Fin 1) n) k = ix3 b (0 : Fin 1) k := funext fun a => Fin.ext (by
    match a with
    | ⟨0, _⟩ => rfl
    | ⟨1, _⟩ => rfl
    | ⟨2, _⟩ => rfl)
  have er : ridx_main_v7 (ix3 b (0 : Fin 1) n) k = ix2 n k := funext fun a => Fin.ext (by
    match a with
    | ⟨0, _⟩ => rfl
    | ⟨1, _⟩ => rfl)
  rw [el, er]
  unfold val_main_v6
  rw [gather_rows_apply]

end Cert.ReferenceIdeal.RefValue

end
-- ==== Proof.LibDotRows.lean ====
/-
  A matrix product whose right operand is contracted on its LAST axis (A · Bᵀ for an m×k matrix A and an n×k
  matrix B), accumulated into a zero splat and read at an index on the extended reals:
  (A · Bᵀ)[a, b] = Σ_c A[a, c] · B[b, c].
-/
import Idealize.ShloMosaic.PureOps.Ideal.Laws
import Idealize.ShloMosaic.Lib.ValueIdx

noncomputable section

namespace Cert.LibDotRows

open Idealize.ShloMosaic Idealize.ShloMosaic.ValueIdx

/-- The product with the right operand contracted on its last axis, into the zero accumulator, at (a, b):
    the sum over the contracted coordinate of the products of the two rows' entries. -/
theorem matmul_transposedRhs_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  show FloatOps.matmul (DotDims.transposedRhs m k n) prec A B (constant ⟨2, ![m, n]⟩ .f32 0x00000000#32) (ix2 a b) = _
  rw [Ideal.matmul_constant_zero_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

end Cert.LibDotRows

end
-- ==== Proof.KerPayload.lean ====
/-
  What the kernel body stores at one grid point, read at an index on the extended reals: entry `(p, q)` of the
  `[64, 256]` tile is the dot product of row `p` of the activation block with row `q` of the weight block. The
  narrowing of both operands before the product is the identity on extended reals, and the product accumulates
  into a zero tile.
-/
import proofs.«155105_j56341380989521_1_alg».proof.Proof.Gen.KernelIdeal.Skeleton
import proofs.«155105_j56341380989521_1_alg».proof.Proof.LibDotRows
import Idealize.ShloMosaic.Lib.Pipeline.Value

noncomputable section

open scoped BigOperators

namespace Cert.KernelIdeal.KerValue

open Cert.KernelIdeal Cert.KernelIdeal.Gen Idealize.ShloMosaic Idealize.ShloMosaic.ValueIdx

/-- The stored tile at `(p, q)`: the sum over the 4096 contracted positions of the products of the two rows' entries. -/
theorem tile_apply (v0 : Vec Ideal S64x4096 .f32) (v3 : Vec Ideal S256x4096 .f32) (p : Fin 64) (q : Fin 256) :
    k0_pay1 (F := Ideal) v0 v3 (ix2 p q) = ∑ k : Fin 4096, v0 (ix2 p k) * v3 (ix2 q k) := by
  unfold k0_pay1
  rw [shapeCast_self]
  exact Cert.LibDotRows.matmul_transposedRhs_apply (m := 64) (k := 4096) (n := 256) none _ _ p q

/-- The same at an index of the tile given whole. -/
theorem tile_apply' (v0 : Vec Ideal S64x4096 .f32) (v3 : Vec Ideal S256x4096 .f32) (y : S64x256.Idx) :
    k0_pay1 (F := Ideal) v0 v3 y
      = ∑ k : Fin 4096, v0 (ix2 (⟨(y 0).val, (y 0).isLt⟩ : Fin 64) k) * v3 (ix2 (⟨(y 1).val, (y 1).isLt⟩ : Fin 256) k) := by
  obtain ⟨p, q, rfl⟩ : ∃ (p : Fin 64) (q : Fin 256), y = ix2 p q := ⟨y 0, y 1, eq_ix2 y⟩
  exact tile_apply v0 v3 p q

end Cert.KernelIdeal.KerValue

end
-- ==== Proof.KerDense.lean ====
/-
  The array the kernel's one region leaves: the full product of the activations with every weight row.

  The region runs over 43 grid points. At point `t` it stages the whole `[64, 4096]` activation matrix (the
  `[64, 1, 4096]` argument with its unit axis dropped), rows `256 t … 256 t + 255` of the weight matrix, and writes
  back columns `256 t … 256 t + 255` of the `[64, 11008]` result. Entry `(p, q)` of the tile it stores is the dot
  product of activation row `p` with weight row `256 t + q`, so every tile is a block of ONE function of the
  arguments, `fullProduct`; the 43 column blocks cover the result, which therefore ends holding that function.
-/
import proofs.«155105_j56341380989521_1_alg».proof.Proof.Gen.KernelIdeal.Frame
import proofs.«155105_j56341380989521_1_alg».proof.Proof.KerPayload
import proofs.«155105_j56341380989521_1_alg».proof.Proof.Spec
import Idealize.ShloMosaic.Lib.Pipeline.Value
import Idealize.ShloMosaic.Lib.StableHlo.Run

noncomputable section

open scoped BigOperators

namespace Cert.KernelIdeal.KerValue

open Cert.KernelIdeal Cert.KernelIdeal.Gen Idealize.ShloMosaic Idealize.ShloMosaic.TcCoe Idealize.SL.Sem
  Idealize.ShloMosaic.ValueIdx Cert.RowSelect
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The staged activations -/

/-- The matrix the first window stages is the activation argument with its unit axis dropped. -/
theorem acts_eq (c : Dev nD) :
    (V m c main_v0 : S64x4096.Idx → EReal)
      = shapeCast S64x4096 (m ((c : Thread nD τ).loc main_arg0)) shapeCasts_S64x1x4096_S64x4096 := by
  show StableHlo.after hostOps0 (fun b => m (c, b)) (Proc.devRef .tc main_v0) = _
  after_results
  rfl

/-- Entry `(p, k)` of it is entry `(p, 0, k)` of the argument: the two sit at the same row-major position. -/
theorem acts_apply (c : Dev nD) (p : Fin 64) (k : Fin 4096) :
    (V m c main_v0 : S64x4096.Idx → EReal) (ix2 p k) = m ((c : Thread nD τ).loc main_arg0) (ix3 p (0 : Fin 1) k) := by
  rw [acts_eq]
  exact shapeCast_apply _ _ _ _ (by
    show (S64x1x4096.rowMajor (ix3 p (0 : Fin 1) k)).val = (S64x4096.rowMajor (ix2 p k)).val
    rw [Shape.rowMajor_val_three, Shape.rowMajor_val_two]
    show (p.val * 1 + 0) * 4096 + k.val = p.val * 4096 + k.val
    omega)

/-! ## The windows' blocks -/

/-- The printed index maps over the grid: the activations' block never moves; the weights' block index on the row
    axis and the result's on the column axis are the point's number. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- The first window's block at any point is the whole staged activation matrix. -/
theorem iblk0_apply (c : Dev nD) (t : Fin cfg0.N) (y : S64x4096.Idx) :
    (iblk m c 0 t : Vec Ideal S64x4096 .f32) y = (V m c main_v0 : S64x4096.Idx → EReal) y := by
  obtain ⟨e0, e1, -, -, -, -⟩ := idx_facts t
  unfold iblk
  rw [View.read_apply]
  show (V m c main_v0 : S64x4096.Idx → EReal) _ = _
  refine congrArg (V m c main_v0 : S64x4096.Idx → EReal) ?_
  funext a
  apply Fin.ext
  match a with
  | ⟨0, _⟩ => show win0_0.index t (0 : Fin 2) * 64 + 1 * (y 0).val = (y 0).val; rw [e0]; omega
  | ⟨1, _⟩ => show win0_0.index t (1 : Fin 2) * 4096 + 1 * (y 1).val = (y 1).val; rw [e1]; omega

/-- The second window's block at point `t` is rows `256 t … 256 t + 255` of the weight argument. -/
theorem iblk1_apply (c : Dev nD) (t : Fin cfg0.N) (y : S256x4096.Idx) (k : S11008x4096.Idx)
    (h0 : (k 0).val = 256 * t.val + (y 0).val) (h1 : (k 1).val = (y 1).val) :
    (iblk m c 1 t : Vec Ideal S256x4096 .f32) y = m ((c : Thread nD τ).loc main_arg1) k := by
  obtain ⟨-, -, e2, e3, -, -⟩ := idx_facts t
  unfold iblk
  rw [View.read_apply]
  show (V m c main_arg1 : S11008x4096.Idx → EReal) _ = _
  rw [V_main_arg1]
  refine congrArg (m ((c : Thread nD τ).loc main_arg1) : S11008x4096.Idx → EReal) ?_
  funext a
  apply Fin.ext
  match a with
  | ⟨0, _⟩ => show win0_1.index t (0 : Fin 2) * 256 + 1 * (y 0).val = (k 0).val; rw [e2, h0]; omega
  | ⟨1, _⟩ => show win0_1.index t (1 : Fin 2) * 4096 + 1 * (y 1).val = (k 1).val; rw [e3, h1]; omega

/-! ## Every tile is a block of the full product -/

/-- The full product `x · Wᵀ` of the arguments, as a `[64, 11008]` array. -/
def fullProduct (c : Dev nD) : S64x11008.Idx → EReal := fun i =>
  dense (m ((c : Thread nD τ).loc main_arg0)) (m ((c : Thread nD τ).loc main_arg1))
    ⟨(i 0).val, (i 0).isLt⟩ ⟨(i 1).val, (i 1).isLt⟩

/-- Entry `y` of the tile stored at point `t` is the dot product of activation row `y 0` with weight row
    `256 t + y 1`. -/
theorem tile_entry (c : Dev nD) (t : Fin cfg0.N) (y : S64x256.Idx) (r : Fin 11008) (hr : r.val = 256 * t.val + (y 1).val) :
    k0_pay1 (F := Ideal) (iblk m c 0 t) (iblk m c 1 t) y
      = dense (m ((c : Thread nD τ).loc main_arg0)) (m ((c : Thread nD τ).loc main_arg1)) ⟨(y 0).val, (y 0).isLt⟩ r := by
  refine (tile_apply' (iblk m c 0 t) (iblk m c 1 t) y).trans ?_
  unfold dense
  refine Finset.sum_congr rfl fun k _ => ?_
  rw [iblk0_apply m c t, iblk1_apply m c t _ (ix2 r k) hr rfl, acts_apply]

/-- What point `t` writes back is block `t` of the full product. -/
theorem flushed_eq (c : Dev nD) (t : Fin cfg0.N) :
    (dats m 0 c).flushed 2 t = ((cfg0.win 2).blk t).view.read (Elt Ideal) (fullProduct m c) := by
  show (cfg0.win 2).cut (grid0.coords t) ((dats m 0 c).after 2 t) = _
  rw [after0_2]
  unfold out0_2
  rw [View.canon_unit_zero hz]
  simp only [View.ld_unit_zero (S := S64x4096) hz, View.ld_unit_zero (S := S256x4096) hz]
  obtain ⟨-, -, -, -, e4, e5⟩ := idx_facts t
  have ht : t.val < 43 := Nat.lt_of_lt_of_eq t.isLt N_0
  funext j
  have hj0 : (j 0).val < 64 := (j 0).isLt
  have hj1 : (j 1).val < 256 := (j 1).isLt
  show k0_pay1 (F := Ideal) (iblk m c 0 t) (iblk m c 1 t) ((cfg0.win 2).xinj (grid0.coords t) j) = _
  refine (tile_entry m c t _ ⟨256 * t.val + (j 1).val, by omega⟩ rfl).trans ?_
  rw [View.read_apply]
  unfold fullProduct
  have h0 : (((cfg0.win 2).blk t).view.emb j 0).val = (j 0).val := by
    show win0_2.index t (0 : Fin 2) * 64 + 1 * (j 0).val = (j 0).val
    rw [e4]; omega
  have h1 : (((cfg0.win 2).blk t).view.emb j 1).val = 256 * t.val + (j 1).val := by
    show win0_2.index t (1 : Fin 2) * 256 + 1 * (j 1).val = 256 * t.val + (j 1).val
    rw [e5]; omega
  exact congrArg₂ (dense (m ((c : Thread nD τ).loc main_arg0)) (m ((c : Thread nD τ).loc main_arg1)))
    (Fin.ext h0.symm) (Fin.ext h1.symm)

/-! ## The blocks cover the result -/

/-- An index of the result is in point `t`'s block iff each coordinate is in the block's range on its axis. -/
theorem mem_blk (t : Fin cfg0.N) (i : S64x11008.Idx) :
    i ∈ ((cfg0.win 2).blk t).view.set ↔ ∀ a : Fin 2, win0_2.index t a * S64x256.size a ≤ (i a).val
      ∧ (i a).val < win0_2.index t a * S64x256.size a + S64x256.size a := by
  show i ∈ ((View.whole main_v1).slice (win0_2.rect t)).set ↔ _
  rw [View.set_slice_whole, Rect.mem_set_unit]
  exact Iff.rfl

/-- Column `n` of the result lies in the block of point `n / 256`. -/
theorem cover (i : S64x11008.Idx) :
    ∃ t : Fin cfg0.N, (cfg0.win 2).flush t = true ∧ i ∈ ((cfg0.win 2).blk t).view.set := by
  have hi0 : (i 0).val < 64 := (i 0).isLt
  have hi1 : (i 1).val < 11008 := (i 1).isLt
  obtain ⟨t, ht⟩ : ∃ t : Fin cfg0.N, t.val = (i 1).val / 256 :=
    ⟨⟨(i 1).val / 256, Nat.lt_of_lt_of_eq (by omega : (i 1).val / 256 < 43) N_0.symm⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 64 ≤ (i 0).val ∧ (i 0).val < win0_2.index t (0 : Fin 2) * 64 + 64
    rw [e4]; omega
  | ⟨1, _⟩ =>
    show win0_2.index t (1 : Fin 2) * 256 ≤ (i 1).val ∧ (i 1).val < win0_2.index t (1 : Fin 2) * 256 + 256
    rw [e5, ht]; omega

/-- So the result array ends holding the full product. -/
theorem final (c : Dev nD) : (dats m 0 c).arrAt 2 cfg0.N = fullProduct m c :=
  (dats m 0 c).arrAt_eq_of_cover 2 (fullProduct m c) (fun t _ => flushed_eq m c t) cover

end Cert.KernelIdeal.KerValue

end
-- ==== Proof.KerGather.lean ====
/-
  The kernel program's column gather read at an index: column `n` of the gathered matrix is the column of the full
  product that start index `n` names (read signed, clamped into the matrix), row by row.
-/
import proofs.«155105_j56341380989521_1_alg».proof.Proof.Gen.KernelIdeal
import proofs.«155105_j56341380989521_1_alg».proof.Proof.Spec

noncomputable section

namespace Cert.KernelIdeal.KerValue

open Cert.KernelIdeal Cert.KernelIdeal.Gen Idealize.ShloMosaic Idealize.ShloMosaic.ValueIdx Cert.RowSelect

/-- Entry `(b, n)` of the gathered `[64, 4403]` matrix is entry `(b, rowOf I n)` of the operand: the gather keeps
    the row coordinate as the offset and collapses the column axis at the clamped start index. -/
theorem gather_cols_apply {α : Type} (Y : S64x11008.Idx → α) (I : IVec S4403x1 32) (b : Fin 64) (n : Fin 4403) :
    Host.gather gather_S64x11008_S4403x1_S64x4403_0_1_n_n_1_1_641 Y I (ix2 b n) = Y (ix2 b (rowOf I n)) := by
  unfold Host.gather
  refine congrArg Y ?_
  funext a
  refine Fin.ext ?_
  match a with
  | ⟨0, _⟩ =>
    show gather_S64x11008_S4403x1_S64x4403_0_1_n_n_1_1_641.start (ix2 b n) I 0 + gather_S64x11008_S4403x1_S64x4403_0_1_n_n_1_1_641.batchCoord (ix2 b n) 0 + gather_S64x11008_S4403x1_S64x4403_0_1_n_n_1_1_641.offCoord (ix2 b n) 0 = b.val
    have hs : gather_S64x11008_S4403x1_S64x4403_0_1_n_n_1_1_641.start (ix2 b n) I 0 = 0 := by
      unfold GatherDims.start
      rw [dif_neg (show (0 : Fin 2) ∉ gather_S64x11008_S4403x1_S64x4403_0_1_n_n_1_1_641.startIndexMap by decide)]
    have ho : gather_S64x11008_S4403x1_S64x4403_0_1_n_n_1_1_641.offCoord (ix2 b n) 0 = b.val := by
      unfold GatherDims.offCoord
      rw [dif_pos (show (0 : Fin 2) ∈ gather_S64x11008_S4403x1_S64x4403_0_1_n_n_1_1_641.sKept by decide)]
      rfl
    rw [hs, ho, GatherDims.batchCoord_eq_zero _ _ _ List.not_mem_nil]
    omega
  | ⟨1, _⟩ =>
    show gather_S64x11008_S4403x1_S64x4403_0_1_n_n_1_1_641.start (ix2 b n) I 1 + gather_S64x11008_S4403x1_S64x4403_0_1_n_n_1_1_641.batchCoord (ix2 b n) 1 + gather_S64x11008_S4403x1_S64x4403_0_1_n_n_1_1_641.offCoord (ix2 b n) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S64x11008_S4403x1_S64x4403_0_1_n_n_1_1_641.startIndexMap from List.mem_singleton.mpr rfl)]
    have hsi : gather_S64x11008_S4403x1_S64x4403_0_1_n_n_1_1_641.siIdx (ix2 b n)
        ⟨List.idxOf (1 : Fin 2) gather_S64x11008_S4403x1_S64x4403_0_1_n_n_1_1_641.startIndexMap,
          List.idxOf_lt_length_iff.2 (List.mem_singleton.mpr rfl)⟩ = ix2 n (0 : Fin 1) := by
      funext d; refine Fin.ext ?_
      match d with
      | ⟨0, _⟩ => rfl
      | ⟨1, _⟩ => rfl
    rw [hsi]
    rfl

end Cert.KernelIdeal.KerValue

end
-- ==== Proof.KerTail.lean ====
/-
  The kernel program's result: after the region, the host picks columns out of the full product and puts the unit axis
  back.

  The integer operations turn the index argument into a column of start indices (a negative word has 11008 added
  first); the gather then takes, for start index `n`, the column of the `[64, 11008]` full product that it names,
  and a reshape sends entry `(b, n)` of the `[64, 4403]` result to `(b, 0, n)`. Entry `(b, 0, n)` is therefore
  the dot product of activation row `b` with the named weight row: `selected`.
-/
import proofs.«155105_j56341380989521_1_alg».proof.Proof.KerDense
import proofs.«155105_j56341380989521_1_alg».proof.Proof.KerGather

noncomputable section

open scoped BigOperators

namespace Cert.KernelIdeal.KerValue

open Cert.KernelIdeal Cert.KernelIdeal.Gen Idealize.ShloMosaic Idealize.ShloMosaic.TcCoe Idealize.SL.Sem
  Idealize.ShloMosaic.ValueIdx Cert.RowSelect
open Idealize.ShloMosaic.Pipeline (Dat)

variable (m : (ℓ : Loc nD τ sig) → Buf (Elt Ideal) ℓ) (ρ : Dev nD → PrngReg)

/-- The start-index column the program's integer operations make of the index argument: each word, with 11008
    added when it is negative, as a `[4403, 1]` column. -/
def startIdx (z : IVec S4403 32) : IVec S4403x1 32 :=
  broadcastInDim S4403x1 ![0] bcast_S4403_S4403x1_0
    (select (cmpi .slt z (broadcastInDim S4403 ![] bcast_S_S4403 (constantI S_ 32 0#32)))
      (addi z (broadcastInDim S4403 ![] bcast_S_S4403 (constantI S_ 32 11008#32))) z)

/-- The program's result buffer after the host operations that follow the region. -/
theorem tail_eq (c : Dev nD) :
    (Pipeline.afterTail₀ cfgs (dats m) 0 (V0 m) [hostOps1] c main_v9 : S64x1x4403.Idx → EReal)
      = selected (m ((c.tc : Thread nD τ).loc main_arg0)) (m ((c.tc : Thread nD τ).loc main_arg1))
          (startIdx (m ((c.tc : Thread nD τ).loc main_arg2))) := by
  have hY : Pipeline.withArrays (cfgs 0).spec c (V0 m c) (fun w => (dats m 0 c).arrAt w (cfgs 0).N) (Proc.devRef .tc main_v1)
      = fullProduct m c :=
    (Pipeline.withArrays_arr spec0 launch0.win.arr_inj c (V0 m c) (fun w => (dats m 0 c).arrAt w (cfgs 0).N) 2).trans (final m c)
  have hI : Pipeline.withArrays (cfgs 0).spec c (V0 m c) (fun w => (dats m 0 c).arrAt w (cfgs 0).N) (Proc.devRef .tc main_arg2)
      = m ((c.tc : Thread nD τ).loc main_arg2) :=
    (Pipeline.withArrays_of_ne spec0 c (V0 m c) (fun w => (dats m 0 c).arrAt w (cfgs 0).N) main_arg2
      (by exact (by decide : ∀ w, Pipeline.arrRef spec0 w ≠ main_arg2))).trans (V_main_arg2 m c)
  unfold Pipeline.afterTail₀
  show StableHlo.after hostOps1 _ (Proc.devRef .tc main_v9) = _
  after_results
  rw [hY, hI]
  funext i
  obtain ⟨b, o, n, rfl⟩ : ∃ (b : Fin 64) (o : Fin 1) (n : Fin 4403), i = ix3 b o n := ⟨i 0, i 1, i 2, eq_ix3 i⟩
  obtain rfl : o = 0 := Subsingleton.elim _ _
  rw [selected_apply]
  show shapeCast S64x1x4403 (Host.gather gather_S64x11008_S4403x1_S64x4403_0_1_n_n_1_1_641 (fullProduct m c)
    (startIdx (m ((c.tc : Thread nD τ).loc main_arg2)))) shapeCasts_S64x4403_S64x1x4403 (ix3 b (0 : Fin 1) n) = _
  rw [shapeCast_apply _ _ _ (ix2 b n) (by
    show (S64x4403.rowMajor (ix2 b n)).val = (S64x1x4403.rowMajor (ix3 b (0 : Fin 1) n)).val
    rw [Shape.rowMajor_val_three, Shape.rowMajor_val_two]
    show b.val * 4403 + n.val = (b.val * 1 + 0) * 4403 + n.val
    omega), gather_cols_apply]
  rfl

/-- The kernel program's run, read: the result buffer at `selected` of the arguments, the arguments unchanged. -/
theorem run : θ_run defs (onTc (τ := τ) (main (F := Ideal))) ⟨m, fun _ => 0, ρ⟩ fun r => ∀ c : Dev nD,
      r.2.mem ((c.tc : Thread nD τ).loc main_v9)
        = selected (m ((c.tc : Thread nD τ).loc main_arg0)) (m ((c.tc : Thread nD τ).loc main_arg1))
            (startIdx (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v9 (Pipeline.mem_restRefs_of main_v9 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KerValue

end
-- ==== Proof.lean ====
/-
  A batch of 64 activation rows is multiplied with 4403 rows picked out of an 11008-row weight matrix by an index
  vector. The reference picks the rows first and contracts afterwards; the kernel program contracts the activations
  with EVERY weight row, 256 rows per grid point over 43 points, and picks the columns of that full product
  afterwards. On the extended reals both results are, at `(b, 0, n)`, the dot product of activation row `b` with the
  weight row that index `n` names (a negative index counted from the end, then clamped into the matrix): picking
  commutes with a product along the axis it does not contract, and no law beyond reading both sides index by index is
  used, so the finiteness of the inputs is never opened. The kernel's narrowing of both operands before the product
  is the identity on extended reals, and the idealized kernel is the kernel's own text, so nothing is owed for the
  idealization.

  The parts: the shared function (Proof/Spec.lean); the reference's gather and its result (Proof/RefGather.lean,
  Proof/RefValue.lean); the kernel's stored tile, the array its region leaves, its column gather and its result
  (Proof/KerPayload.lean, Proof/KerDense.lean, Proof/KerGather.lean, Proof/KerTail.lean); here, the five claims.
-/
import proofs.«155105_j56341380989521_1_alg».proof.Defs
import proofs.«155105_j56341380989521_1_alg».proof.Proof.Gen.Kernel
import proofs.«155105_j56341380989521_1_alg».proof.Proof.Gen.Kernel.Skeleton
import proofs.«155105_j56341380989521_1_alg».proof.Proof.Gen.Kernel.Launch
import proofs.«155105_j56341380989521_1_alg».proof.Proof.Gen.Kernel.Points
import proofs.«155105_j56341380989521_1_alg».proof.Proof.Gen.Kernel.Frame
import proofs.«155105_j56341380989521_1_alg».proof.Proof.Gen.KernelIdeal
import proofs.«155105_j56341380989521_1_alg».proof.Proof.Gen.KernelIdeal.Skeleton
import proofs.«155105_j56341380989521_1_alg».proof.Proof.Gen.KernelIdeal.Launch
import proofs.«155105_j56341380989521_1_alg».proof.Proof.Gen.KernelIdeal.Points
import proofs.«155105_j56341380989521_1_alg».proof.Proof.Gen.KernelIdeal.Frame
import proofs.«155105_j56341380989521_1_alg».proof.Proof.Gen.ReferenceIdeal
import proofs.«155105_j56341380989521_1_alg».proof.Proof.Gen.Pre_finite_inputs
import proofs.«155105_j56341380989521_1_alg».proof.Proof.Gen.ReferenceIdeal.Run
import proofs.«155105_j56341380989521_1_alg».proof.Proof.Gen.ReferenceIdeal.Read
import proofs.«155105_j56341380989521_1_alg».proof.Proof.RefValue
import proofs.«155105_j56341380989521_1_alg».proof.Proof.KerTail
import Idealize.ShloMosaic.Adequacy
import Idealize.ShloMosaic.Init

noncomputable section

namespace Cert.Proof

open Idealize.ShloMosaic Idealize.SL.Sem

/-- The kernel program runs and leaves its arguments alone. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and leaves its arguments alone: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with `selected` of the arguments: the kernel program by its region's full product and the
    column gather after it, the reference by its row gather and contraction; the two programs make the same
    start-index column of the same index argument. -/
theorem algebraic : Cert.algebraic_KernelIdeal_ReferenceIdeal := by
  intro m ρ m' ρ' _ hagree
  refine ⟨fun c => Cert.RowSelect.selected
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (Cert.KernelIdeal.KerValue.startIdx (m ((c.tc : Thread Cert.KernelIdeal.nD Cert.KernelIdeal.τ).loc Cert.KernelIdeal.main_arg2))),
    Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v7_eq,
    Cert.ReferenceIdeal.RefValue.result_eq]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
